-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x3200000 : Shape := ⟨2, ![2, 3200000]⟩
abbrev S20x20 : Shape := ⟨2, ![20, 20]⟩
abbrev S20 : Shape := ⟨1, ![20]⟩
abbrev S20x256 : Shape := ⟨2, ![20, 256]⟩
abbrev S256 : Shape := ⟨1, ![256]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S20x20 : S_.BroadcastsInDim S20x20 (![] : Fin 0 → Fin S20x20.rank)
  reducesTo_S20x20_S_d0_1 : S20x20.ReducesTo [0, 1] S_
  bcast_S_S20 : S_.BroadcastsInDim S20 (![] : Fin 0 → Fin S20.rank)
  reducesTo_S20_S_d0 : S20.ReducesTo [0] S_
  bcast_S_S20x256 : S_.BroadcastsInDim S20x256 (![] : Fin 0 → Fin S20x256.rank)
  reducesTo_S20x256_S_d0_1 : S20x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S20x256 .f32) (main_arg6 : FVec F S256 .f32) (main_arg7 : FVec F S20x256 .f32) (main_v13 : IVec S_ 1) (main_v16 : IVec S20x20 1) : IVec S_ 1 :=
  let main_c_5 : IVec S_ 1 := constantI S_ 1 1#1
  let main_v17 : IVec S_ 1 := (fun x v => Host.reduce IntOp.andi x v reducesTo_S20x20_S_d0_1 h_S_) main_v16 main_c_5
  let main_v18 : IVec S_ 1 := andi main_v13 main_v17
  let main_v19 : FVec F S20x256 .f32 := Host.absf main_arg5
  let main_cst_6 : FVec F S_ .f32 := constant S_ .f32 0x7F800000#32
  let main_v20 : FVec F S20x256 .f32 := broadcastInDim S20x256 ![] bcast_S_S20x256 main_cst_6
  let main_v21 : IVec S20x256 1 := cmpf .olt main_v19 main_v20
  let main_c_7 : IVec S_ 1 := constantI S_ 1 1#1
  let main_v22 : IVec S_ 1 := (fun x v => Host.reduce IntOp.andi x v reducesTo_S20x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S20x256 .f32 := Host.absf main_arg7
  let main_cst_10 : FVec F S_ .f32 := constant S_ .f32 0x7F800000#32
  let main_v30 : FVec F S20x256 .f32 := broadcastInDim S20x256 ![] bcast_S_S20x256 main_cst_10
  let main_v31 : IVec S20x256 1 := cmpf .olt main_v29 main_v30
  let main_c_11 : IVec S_ 1 := constantI S_ 1 1#1
  let main_v32 : IVec S_ 1 := (fun x v => Host.reduce IntOp.andi x v reducesTo_S20x256_S_d0_1 h_S_) main_v31 main_c_11
  let main_v33 : IVec S_ 1 := andi main_v28 main_v32
  main_v33

def fn {F : FTy → Type} [FloatOps F] (main_arg0 : FVec F S100000x20 .f32) (main_arg1 : IVec S2x3200000 32) (main_arg2 : FVec F S20x20 .f32) (main_arg3 : FVec F S20 .f32) (main_arg4 : FVec F S20x20 .f32) (main_arg5 : FVec F S20x256 .f32) (main_arg6 : FVec F S256 .f32) (main_arg7 : FVec F S20x256 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S20x20 .f32 := Host.absf main_arg2
  let main_cst_0 : FVec F S_ .f32 := constant S_ .f32 0x7F800000#32
  let main_v5 : FVec F S20x20 .f32 := broadcastInDim S20x20 ![] bcast_S_S20x20 main_cst_0
  let main_v6 : IVec S20x20 1 := cmpf .olt main_v4 main_v5
  let main_c_1 : IVec S_ 1 := constantI S_ 1 1#1
  let main_v7 : IVec S_ 1 := (fun x v => Host.reduce IntOp.andi x v reducesTo_S20x20_S_d0_1 h_S_) main_v6 main_c_1
  let main_v8 : IVec S_ 1 := andi main_v3 main_v7
  let main_v9 : FVec F S20 .f32 := Host.absf main_arg3
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x20 .f32 := Host.absf main_arg4
  let main_cst_4 : FVec F S_ .f32 := constant S_ .f32 0x7F800000#32
  let main_v15 : FVec F S20x20 .f32 := broadcastInDim S20x20 ![] bcast_S_S20x20 main_cst_4
  let main_v16 : IVec S20x20 1 := cmpf .olt main_v14 main_v15
  fn_part1 (F := F) main_arg5 main_arg6 main_arg7 main_v13 main_v16
-- ==== Kernel.lean ====
abbrev S100000x20 : Shape := ⟨2, ![100000, 20]⟩
abbrev S2x3200000 : Shape := ⟨2, ![2, 3200000]⟩
abbrev S20x20 : Shape := ⟨2, ![20, 20]⟩
abbrev S20 : Shape := ⟨1, ![20]⟩
abbrev S20x256 : Shape := ⟨2, ![20, 256]⟩
abbrev S256 : Shape := ⟨1, ![256]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x20 : Shape := ⟨2, ![3200000, 20]⟩
abbrev S100000x1 : Shape := ⟨2, ![100000, 1]⟩
abbrev S1x20 : Shape := ⟨2, ![1, 20]⟩
abbrev S5000x20 : Shape := ⟨2, ![5000, 20]⟩
abbrev S1x256 : Shape := ⟨2, ![1, 256]⟩
abbrev S100000x256 : Shape := ⟨2, ![100000, 256]⟩
abbrev S5000x256 : Shape := ⟨2, ![5000, 256]⟩

abbrev nBuf : Space → Nat
  | .hbm => 60
  | .vmem => 18
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S20x20, .f32⟩
  | .hbm, ⟨3, _⟩ => ⟨S20, .f32⟩
  | .hbm, ⟨4, _⟩ => ⟨S20x20, .f32⟩
  | .hbm, ⟨5, _⟩ => ⟨S20x256, .f32⟩
  | .hbm, ⟨6, _⟩ => ⟨S256, .f32⟩
  | .hbm, ⟨7, _⟩ => ⟨S20x256, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x20, .f32⟩
  | .hbm, ⟨33, _⟩ => ⟨S_, .f32⟩
  | .hbm, ⟨34, _⟩ => ⟨S100000x20, .f32⟩
  | .hbm, ⟨35, _⟩ => ⟨S3200000x1, .i32⟩
  | .hbm, ⟨36, _⟩ => ⟨S100000x20, .f32⟩
  | .hbm, ⟨37, _⟩ => ⟨S100000x1, .f32⟩
  | .hbm, ⟨38, _⟩ => ⟨S100000x20, .f32⟩
  | .hbm, ⟨39, _⟩ => ⟨S100000x20, .f32⟩
  | .hbm, ⟨40, _⟩ => ⟨S1x20, .f32⟩
  | .hbm, ⟨41, _⟩ => ⟨S100000x20, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x20, .f32⟩
  | .hbm, ⟨51, _⟩ => ⟨S_, .f32⟩
  | .hbm, ⟨52, _⟩ => ⟨S100000x20, .f32⟩
  | .hbm, ⟨53, _⟩ => ⟨S3200000x1, .i32⟩
  | .hbm, ⟨54, _⟩ => ⟨S100000x20, .f32⟩
  | .hbm, ⟨55, _⟩ => ⟨S100000x1, .f32⟩
  | .hbm, ⟨56, _⟩ => ⟨S100000x20, .f32⟩
  | .hbm, ⟨57, _⟩ => ⟨S100000x20, .f32⟩
  | .hbm, ⟨58, _⟩ => ⟨S1x256, .f32⟩
  | .hbm, ⟨59, _⟩ => ⟨S100000x256, .f32⟩
  | .local _ .vmem, ⟨0, _⟩ => ⟨S5000x20, .f32⟩
  | .local _ .vmem, ⟨1, _⟩ => ⟨S5000x20, .f32⟩
  | .local _ .vmem, ⟨2, _⟩ => ⟨S5000x20, .f32⟩
  | .local _ .vmem, ⟨3, _⟩ => ⟨S5000x20, .f32⟩
  | .local _ .vmem, ⟨4, _⟩ => ⟨S20x20, .f32⟩
  | .local _ .vmem, ⟨5, _⟩ => ⟨S1x20, .f32⟩
  | .local _ .vmem, ⟨6, _⟩ => ⟨S20x20, .f32⟩
  | .local _ .vmem, ⟨7, _⟩ => ⟨S5000x20, .f32⟩
  | .local _ .vmem, ⟨8, _⟩ => ⟨S5000x20, .f32⟩
  | .local _ .vmem, ⟨9, _⟩ => ⟨S5000x20, .f32⟩
  | .local _ .vmem, ⟨10, _⟩ => ⟨S5000x20, .f32⟩
  | .local _ .vmem, ⟨11, _⟩ => ⟨S5000x20, .f32⟩
  | .local _ .vmem, ⟨12, _⟩ => ⟨S5000x20, .f32⟩
  | .local _ .vmem, ⟨13, _⟩ => ⟨S20x256, .f32⟩
  | .local _ .vmem, ⟨14, _⟩ => ⟨S1x256, .f32⟩
  | .local _ .vmem, ⟨15, _⟩ => ⟨S20x256, .f32⟩
  | .local _ .vmem, ⟨16, _⟩ => ⟨S5000x256, .f32⟩
  | .local _ .vmem, ⟨17, _⟩ => ⟨S5000x256, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S20x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x20 : S_.BroadcastsInDim S100000x20 (![] : Fin 0 → Fin S100000x20.rank)
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  shapeCasts_S20_S1x20 : S20.ShapeCasts S1x20
  inb_S5000x20_S5000x20_0_0 : ∀ a, (![0, 0] : Fin 2 → Nat) a + S5000x20.size a ≤ S5000x20.size a
  h_S5000x20 : 0 < S5000x20.numel
  shapeCasts_S5000x20_S5000x20 : S5000x20.ShapeCasts S5000x20
  bitsLt_bf16_f32 : FTy.bits .bf16 < FTy.bits .f32
  inb_S20x20_S20x20_0_0 : ∀ a, (![0, 0] : Fin 2 → Nat) a + S20x20.size a ≤ S20x20.size a
  h_S20x20 : 0 < S20x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  shapeCasts_S256_S1x256 : S256.ShapeCasts S1x256
  inb_S20x256_S20x256_0_0 : ∀ a, (![0, 0] : Fin 2 → Nat) a + S20x256.size a ≤ S20x256.size a
  h_S20x256 : 0 < S20x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  scatter_S100000_S3200000x1_S3200000_n_0_0_1_wf : ScatterDims.WF S100000 S3200000x1 S3200000 [] [0] [0] 1
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S5000x20_S20x20_S5000x20_1_0_0_1_n_n_wf : DotDims.WF S5000x20 S20x20 S5000x20 [1] [0] [0] [1] [] []
  dot_S5000x20_S20x256_S5000x256_1_0_0_1_n_n_wf : DotDims.WF S5000x20 S20x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S100000x20.size a
  hwx0_0 : ∀ i : grid0.Coords, EltTy.bits .f32 = 32 ∨ (Rect.block (s := S100000x20) S5000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x20.size a ≤ S100000x20.size a
  hwx0_1 : ∀ i : grid0.Coords, EltTy.bits .f32 = 32 ∨ (Rect.block (s := S100000x20) S5000x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x20.size a ≤ S20x20.size a
  hwx0_2 : ∀ i : grid0.Coords, EltTy.bits .f32 = 32 ∨ (Rect.block (s := S20x20) S20x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x20.size a ≤ S20x20.size a
  hwx0_4 : ∀ i : grid0.Coords, EltTy.bits .f32 = 32 ∨ (Rect.block (s := S20x20) S20x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x20.size a ≤ S100000x20.size a
  hwx0_5 : ∀ i : grid0.Coords, EltTy.bits .f32 = 32 ∨ (Rect.block (s := S100000x20) S5000x20.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x20.size a ≤ S100000x20.size a
  hwx1_0 : ∀ i : grid1.Coords, EltTy.bits .f32 = 32 ∨ (Rect.block (s := S100000x20) S5000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x20.size a ≤ S100000x20.size a
  hwx1_1 : ∀ i : grid1.Coords, EltTy.bits .f32 = 32 ∨ (Rect.block (s := S100000x20) S5000x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x256.size a ≤ S20x256.size a
  hwx1_2 : ∀ i : grid1.Coords, EltTy.bits .f32 = 32 ∨ (Rect.block (s := S20x256) S20x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S20x256.size a ≤ S20x256.size a
  hwx1_4 : ∀ i : grid1.Coords, EltTy.bits .f32 = 32 ∨ (Rect.block (s := S20x256) S20x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S100000x256.size a
  hwx1_5 : ∀ i : grid1.Coords, EltTy.bits .f32 = 32 ∨ (Rect.block (s := S100000x256) S5000x256.size (cc1_transform_5 i) (hinb1_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S5000x20_S20x20_S5000x20_1_0_0_1_n_n : DotDims S5000x20 S20x20 S5000x20 where
  lhsContracting := [1]
  rhsContracting := [0]
  lhsNonContracting := [0]
  rhsNonContracting := [1]
  lhsBatch := []
  rhsBatch := []
  wf := dot_S5000x20_S20x20_S5000x20_1_0_0_1_n_n_wf
def dot_S5000x20_S20x256_S5000x256_1_0_0_1_n_n : DotDims S5000x20 S20x256 S5000x256 where
  lhsContracting := [1]
  rhsContracting := [0]
  lhsNonContracting := [0]
  rhsNonContracting := [1]
  lhsBatch := []
  rhsBatch := []
  wf := dot_S5000x20_S20x256_S5000x256_1_0_0_1_n_n_wf

abbrev win0_0 : Pipeline.Window sig grid0 :=
  Pipeline.Window.ofSpec (Memref.whole main_v24) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S20x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x20.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S20x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S20x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x20 : Shape := ⟨2, ![100000, 20]⟩
abbrev S2x3200000 : Shape := ⟨2, ![2, 3200000]⟩
abbrev S20x20 : Shape := ⟨2, ![20, 20]⟩
abbrev S20 : Shape := ⟨1, ![20]⟩
abbrev S20x256 : Shape := ⟨2, ![20, 256]⟩
abbrev S256 : Shape := ⟨1, ![256]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x20 : Shape := ⟨2, ![3200000, 20]⟩
abbrev S100000 : Shape := ⟨1, ![100000]⟩
abbrev S100000x1 : Shape := ⟨2, ![100000, 1]⟩
abbrev S1x20 : Shape := ⟨2, ![1, 20]⟩
abbrev S100000x256 : Shape := ⟨2, ![100000, 256]⟩
abbrev S1x256 : Shape := ⟨2, ![1, 256]⟩

abbrev nBuf : Space → Nat
  | .hbm => 81
  | .vmem => 0
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S20x20, .f32⟩
  | .hbm, ⟨3, _⟩ => ⟨S20, .f32⟩
  | .hbm, ⟨4, _⟩ => ⟨S20x20, .f32⟩
  | .hbm, ⟨5, _⟩ => ⟨S20x256, .f32⟩
  | .hbm, ⟨6, _⟩ => ⟨S256, .f32⟩
  | .hbm, ⟨7, _⟩ => ⟨S20x256, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x20, .f32⟩
  | .hbm, ⟨21, _⟩ => ⟨S_, .f32⟩
  | .hbm, ⟨22, _⟩ => ⟨S100000x20, .f32⟩
  | .hbm, ⟨23, _⟩ => ⟨S3200000x1, .i32⟩
  | .hbm, ⟨24, _⟩ => ⟨S100000x20, .f32⟩
  | .hbm, ⟨25, _⟩ => ⟨S_, .f32⟩
  | .hbm, ⟨26, _⟩ => ⟨S3200000, .f32⟩
  | .hbm, ⟨27, _⟩ => ⟨S_, .f32⟩
  | .hbm, ⟨28, _⟩ => ⟨S100000, .f32⟩
  | .hbm, ⟨29, _⟩ => ⟨S3200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x20, .f32⟩
  | .hbm, ⟨36, _⟩ => ⟨S100000x20, .f32⟩
  | .hbm, ⟨37, _⟩ => ⟨S100000x20, .f32⟩
  | .hbm, ⟨38, _⟩ => ⟨S1x20, .f32⟩
  | .hbm, ⟨39, _⟩ => ⟨S100000x20, .f32⟩
  | .hbm, ⟨40, _⟩ => ⟨S100000x20, .f32⟩
  | .hbm, ⟨41, _⟩ => ⟨S100000x20, .f32⟩
  | .hbm, ⟨42, _⟩ => ⟨S100000x20, .f32⟩
  | .hbm, ⟨43, _⟩ => ⟨S_, .f32⟩
  | .hbm, ⟨44, _⟩ => ⟨S100000x20, .f32⟩
  | .hbm, ⟨45, _⟩ => ⟨S100000x20, .f32⟩
  | .hbm, ⟨46, _⟩ => ⟨S1x3200000, .i32⟩
  | .hbm, ⟨47, _⟩ => ⟨S3200000, .i32⟩
  | .hbm, ⟨48, _⟩ => ⟨S1x3200000, .i32⟩
  | .hbm, ⟨49, _⟩ => ⟨S3200000, .i32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x20, .f32⟩
  | .hbm, ⟨59, _⟩ => ⟨S_, .f32⟩
  | .hbm, ⟨60, _⟩ => ⟨S100000x20, .f32⟩
  | .hbm, ⟨61, _⟩ => ⟨S3200000x1, .i32⟩
  | .hbm, ⟨62, _⟩ => ⟨S100000x20, .f32⟩
  | .hbm, ⟨63, _⟩ => ⟨S_, .f32⟩
  | .hbm, ⟨64, _⟩ => ⟨S3200000, .f32⟩
  | .hbm, ⟨65, _⟩ => ⟨S_, .f32⟩
  | .hbm, ⟨66, _⟩ => ⟨S100000, .f32⟩
  | .hbm, ⟨67, _⟩ => ⟨S3200000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x20, .f32⟩
  | .hbm, ⟨74, _⟩ => ⟨S100000x20, .f32⟩
  | .hbm, ⟨75, _⟩ => ⟨S100000x256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S100000x256, .f32⟩
  | .hbm, ⟨80, _⟩ => ⟨S100000x256, .f32⟩
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x20 : S_.BroadcastsInDim S100000x20 (![] : Fin 0 → Fin S100000x20.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  scatter_S100000_S3200000x1_S3200000_n_0_0_1_wf : ScatterDims.WF S100000 S3200000x1 S3200000 [] [0] [0] 1
  dot_S100000x20_S20x20_S100000x20_1_0_0_1_n_n_wf : DotDims.WF S100000x20 S20x20 S100000x20 [1] [0] [0] [1] [] []
  dot_S100000x20_S20x256_S100000x256_1_0_0_1_n_n_wf : DotDims.WF S100000x20 S20x256 S100000x256 [1] [0] [0] [1] [] []

variable [Facts₀]

def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x20_S20x20_S100000x20_1_0_0_1_n_n : DotDims S100000x20 S20x20 S100000x20 where
  lhsContracting := [1]
  rhsContracting := [0]
  lhsNonContracting := [0]
  rhsNonContracting := [1]
  lhsBatch := []
  rhsBatch := []
  wf := dot_S100000x20_S20x20_S100000x20_1_0_0_1_n_n_wf
def dot_S100000x20_S20x256_S100000x256_1_0_0_1_n_n : DotDims S100000x20 S20x256 S100000x256 where
  lhsContracting := [1]
  rhsContracting := [0]
  lhsNonContracting := [0]
  rhsNonContracting := [1]
  lhsBatch := []
  rhsBatch := []
  wf := dot_S100000x20_S20x256_S100000x256_1_0_0_1_n_n_wf

class Facts : Prop extends Facts₀ where

variable [Facts]
-- ==== Proof.KernelRun.lean ====
/-
  The idealized kernel's run with its result kept.

  @main is four segments: host operations, the first layer's pipelined region, host operations, the second layer's
  region.  The generated frame launches them in order and, at the end, reads every buffer that outlives a region against the
  contents the last segment leaves; it keeps the argument arrays of that reading.  The same launch keeps the result
  array as well: the result buffer holds what the last boundary's contents assign it, which is the second region's
  output array after all its write-backs.
-/
import proofs.«115466_j82506321756776_2_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument array as launched. -/
theorem run_out : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.KernelRun

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«115466_j82506321756776_2_alg».proof.Proof.LibDotEntry
import proofs.«115466_j82506321756776_2_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibTwoTermLayer.lean ====
/-
  A dense layer with two matrix terms, read at an entry.

  Entry (p, q) of  a·Wl + x·Wr + b  is  (Σₖ a(p, k)·Wl(k, q)) + (Σₖ x(p, k)·Wr(k, q)) + b(q), with or without a
  final maximum with zero.  At exact arithmetic a TensorCore kernel that multiplies each pair into a zero accumulator,
  adds the two products and adds a [1, n] bias row repeated down the rows has this entry, and so has the host's sum of
  two dot_generals and of the bias laid out by two broadcast_in_dim.  The entry depends on row p of the two left
  factors, column q of the two right factors and the bias at q only.
-/
import Idealize.ShloMosaic.Lib.ValueIdx
import Idealize.ShloMosaic.Lib.ValueLayout
import Idealize.ShloMosaic.Lib.Pipeline.Value
import Idealize.ShloMosaic.PureOps.Ideal.Laws
import proofs.«115466_j82506321756776_2_alg».proof.Proof.LibDenseLayer

noncomputable section

namespace Cert.Lib.TwoTermLayer

open Idealize.ShloMosaic Idealize.ShloMosaic.TcCoe Idealize.SL.Sem Idealize.ShloMosaic.ValueIdx Cert.Lib.DenseLayer

variable {m K n : Nat}

/-- Entry (p, q) before any activation: row p of `a` against column q of `wl`, plus row p of `x` against column q of
    `wr`, plus the bias at q. -/
def pre (a x : FVec Ideal ⟨2, ![m, K]⟩ .f32) (wl wr : FVec Ideal ⟨2, ![K, n]⟩ .f32) (b : Fin n → EReal)
    (p : Fin m) (q : Fin n) : EReal :=
  (∑ k : Fin K, a (ix2 p k) * wl (ix2 k q)) + (∑ k : Fin K, x (ix2 p k) * wr (ix2 k q)) + b q

/-- The entry reads row p of the left factors, column q of the right factors and the bias at q, and nothing else. -/
theorem pre_congr {m' : Nat} (a x : FVec Ideal ⟨2, ![m, K]⟩ .f32) (a' x' : FVec Ideal ⟨2, ![m', K]⟩ .f32)
    (wl wr wl' wr' : FVec Ideal ⟨2, ![K, n]⟩ .f32) (b b' : Fin n → EReal) (p : Fin m) (p' : Fin m') (q q' : Fin n)
    (ha : ∀ k, a (ix2 p k) = a' (ix2 p' k)) (hx : ∀ k, x (ix2 p k) = x' (ix2 p' k))
    (hwl : ∀ k, wl (ix2 k q) = wl' (ix2 k q')) (hwr : ∀ k, wr (ix2 k q) = wr' (ix2 k q')) (hb : b q = b' q') :
    pre a x wl wr b p q = pre a' x' wl' wr' b' p' q' := by
  unfold pre
  simp only [ha, hx, hwl, hwr, hb]

/-- The layer without activation, as one array. -/
def linear (a x : FVec Ideal ⟨2, ![m, K]⟩ .f32) (wl wr : FVec Ideal ⟨2, ![K, n]⟩ .f32) (b : Fin n → EReal) :
    FVec Ideal ⟨2, ![m, n]⟩ .f32 :=
  fun i => pre a x wl wr b (i 0) (i 1)

/-- The layer followed by the maximum with zero, as one array. -/
def rectified (a x : FVec Ideal ⟨2, ![m, K]⟩ .f32) (wl wr : FVec Ideal ⟨2, ![K, n]⟩ .f32) (b : Fin n → EReal) :
    FVec Ideal ⟨2, ![m, n]⟩ .f32 :=
  fun i => max (pre a x wl wr b (i 0) (i 1)) (Ideal.ofBits .f32 0x00000000#32)

/-- Equal factors and pointwise equal biases give the same layer. -/
theorem linear_congr {a a' x x' : FVec Ideal ⟨2, ![m, K]⟩ .f32} {wl wl' wr wr' : FVec Ideal ⟨2, ![K, n]⟩ .f32}
    {b b' : Fin n → EReal} (ha : a = a') (hx : x = x') (hwl : wl = wl') (hwr : wr = wr') (hb : ∀ q, b q = b' q) :
    linear a x wl wr b = linear a' x' wl' wr' b' := by
  obtain rfl : b = b' := funext hb
  subst ha hx hwl hwr
  rfl

/-- The same with the maximum with zero. -/
theorem rectified_congr {a a' x x' : FVec Ideal ⟨2, ![m, K]⟩ .f32} {wl wl' wr wr' : FVec Ideal ⟨2, ![K, n]⟩ .f32}
    {b b' : Fin n → EReal} (ha : a = a') (hx : x = x') (hwl : wl = wl') (hwr : wr = wr') (hb : ∀ q, b q = b' q) :
    rectified a x wl wr b = rectified a' x' wl' wr' b' := by
  obtain rfl : b = b' := funext hb
  subst ha hx hwl hwr
  rfl

variable {D : DotDims ⟨2, ![m, K]⟩ ⟨2, ![K, n]⟩ ⟨2, ![m, n]⟩}

/-- The kernel's form at entry (p, q): two products into zero accumulators (the factors of any float formats), added, plus a
    [1, n] bias row repeated down the rows. -/
theorem kernel_entry (hD : IsMatProduct D) {φ₁ φ₂ : FTy} (a x : FVec Ideal ⟨2, ![m, K]⟩ φ₁)
    (wl wr : FVec Ideal ⟨2, ![K, n]⟩ φ₂) (brow : FVec Ideal ⟨2, ![1, n]⟩ .f32)
    (hbc : (⟨2, ![1, n]⟩ : Shape).Broadcasts ⟨2, ![m, n]⟩) (p : Fin m) (q : Fin n) :
    addf (addf (matmul D none a wl (constant (F := Ideal) ⟨2, ![m, n]⟩ .f32 0x00000000#32))
          (matmul D none x wr (constant (F := Ideal) ⟨2, ![m, n]⟩ .f32 0x00000000#32)))
        (broadcastTo ⟨2, ![m, n]⟩ brow hbc) (ix2 p q)
      = (∑ k : Fin K, a (ix2 p k) * wl (ix2 k q)) + (∑ k : Fin K, x (ix2 p k) * wr (ix2 k q)) + brow (ix2 (0 : Fin 1) q) := by
  rw [addf_apply, addf_apply, matmul_entry hD, matmul_entry hD, broadcastTo_1b_ab_apply]

/-- The host's form at entry (p, q): two dot_generals added, plus the bias laid out as a [1, n] row and then as an
    [m, n] matrix. -/
theorem host_entry (hD : IsMatProduct D) (a x : FVec Ideal ⟨2, ![m, K]⟩ .f32) (wl wr : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (addf (Host.dotGeneral (F := Ideal) D none a wl) (Host.dotGeneral (F := Ideal) D none x wr))
        (broadcastInDim ⟨2, ![m, n]⟩ ![0, 1] h₂ (broadcastInDim ⟨2, ![1, n]⟩ ![1] h₁ b)) (ix2 p q)
      = pre a x wl wr (fun q => b (ix1 q)) p q := by
  rw [addf_apply, addf_apply, dotGeneral_entry hD, dotGeneral_entry hD, host_bias_entry]
  rfl

end Cert.Lib.TwoTermLayer

end
-- ==== Proof.Blocks.lean ====
/-
  What each pipelined region leaves in its output array.

  Both regions run the same body on blocks of 5000 rows: load a block of aggregated features a and a block of node
  features x, the two weight matrices and the bias row, and store  a·Wl + x·Wr + b  (the first region followed by the
  maximum with zero).  A format change is the identity on extended reals, and a matrix product into a zero accumulator is
  the plain sum over the contracted axis, so entry (p, q) of what a point stores is the two-term layer's entry at row p of
  its blocks.  Point t's blocks are rows 5000·t … 5000·t + 4999 of the arrays (all columns), the weights and the bias are
  whole at every point, and the twenty blocks tile the 100000 rows: after all write-backs the output array is the layer
  of the WHOLE input arrays, entry by entry.
-/
import proofs.«115466_j82506321756776_2_alg».proof.Proof.Gen.KernelIdeal.Frame
import proofs.«115466_j82506321756776_2_alg».proof.Proof.LibTwoTermLayer
import Idealize.ShloMosaic.Lib.ValueIdx
import Idealize.ShloMosaic.Lib.ValueLayout
import Idealize.ShloMosaic.Lib.Pipeline.Value

set_option maxRecDepth 16384

noncomputable section

namespace Cert.Sage.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.DenseLayer Cert.Lib.TwoTermLayer

theorem zero_offsets : (![0, 0] : Fin 2 → Nat) = fun _ => 0 := funext fun a => by fin_cases a <;> rfl

/-- Both products contract the left factor's columns against the right factor's rows. -/
theorem isMat0 : IsMatProduct (m := 5000) (K := 20) (n := 20) dot_S5000x20_S20x20_S5000x20_1_0_0_1_n_n :=
  ⟨rfl, rfl, rfl, rfl, rfl, rfl⟩
theorem isMat1 : IsMatProduct (m := 5000) (K := 20) (n := 256) dot_S5000x20_S20x256_S5000x256_1_0_0_1_n_n :=
  ⟨rfl, rfl, rfl, rfl, rfl, rfl⟩

/-! ## The bodies at an entry -/

/-- The first region's stored value at entry (p, q): the two-term layer's entry, then the maximum with zero. -/
theorem pay0_entry (a x : Vec Ideal S5000x20 .f32) (wl wr : Vec Ideal S20x20 .f32) (b : Vec Ideal S1x20 .f32)
    (p : Fin 5000) (q : Fin 20) :
    k0_pay1 (F := Ideal) a x wl wr b (ix2 p q)
      = max (pre a x wl wr (fun q => b (ix2 (0 : Fin 1) q)) p q) (Ideal.ofBits .f32 0x00000000#32) := by
  unfold k0_pay1
  rw [maximumf_apply, shapeCast_self, shapeCast_self, kernel_entry isMat0]
  rfl

/-- The second region's stored value at entry (p, q): the two-term layer's entry. -/
theorem pay1_entry (a x : Vec Ideal S5000x20 .f32) (wl wr : Vec Ideal S20x256 .f32) (b : Vec Ideal S1x256 .f32)
    (p : Fin 5000) (q : Fin 256) :
    k1_pay1 (F := Ideal) a x wl wr b (ix2 p q) = pre a x wl wr (fun q => b (ix2 (0 : Fin 1) q)) p q := by
  unfold k1_pay1
  rw [shapeCast_self, shapeCast_self, shapeCast_self, kernel_entry isMat1]
  rfl

/-- The stored blocks as layers of the loaded blocks. -/
theorem pay0_eq (a x : Vec Ideal S5000x20 .f32) (wl wr : Vec Ideal S20x20 .f32) (b : Vec Ideal S1x20 .f32) :
    k0_pay1 (F := Ideal) a x wl wr b
      = rectified (m := 5000) (K := 20) (n := 20) a x wl wr (fun q => b (ix2 (0 : Fin 1) q)) :=
  funext fun i => (congrArg (k0_pay1 (F := Ideal) a x wl wr b) (eq_ix2 i)).trans (pay0_entry a x wl wr b (i 0) (i 1))

theorem pay1_eq (a x : Vec Ideal S5000x20 .f32) (wl wr : Vec Ideal S20x256 .f32) (b : Vec Ideal S1x256 .f32) :
    k1_pay1 (F := Ideal) a x wl wr b
      = linear (m := 5000) (K := 20) (n := 256) a x wl wr (fun q => b (ix2 (0 : Fin 1) q)) :=
  funext fun i => (congrArg (k1_pay1 (F := Ideal) a x wl wr b) (eq_ix2 i)).trans (pay1_entry a x wl wr b (i 0) (i 1))

/-- A block's layer entry is the whole arrays' layer entry at the row the block's row sits at: the entry reads one row
    of the left factors, one column of the right factors and one bias entry. -/
theorem linear_block {n : Nat} (a x : FVec Ideal ⟨2, ![5000, 20]⟩ .f32) (wl wr : FVec Ideal ⟨2, ![20, n]⟩ .f32)
    (b : FVec Ideal ⟨2, ![1, n]⟩ .f32) (A X : FVec Ideal ⟨2, ![100000, 20]⟩ .f32) (Wl Wr : FVec Ideal ⟨2, ![20, n]⟩ .f32)
    (B : FVec Ideal ⟨2, ![1, n]⟩ .f32) (p : Fin 5000) (q : Fin n) (P : Fin 100000) (Q : Fin n)
    (ha : ∀ k, a (ix2 p k) = A (ix2 P k)) (hx : ∀ k, x (ix2 p k) = X (ix2 P k))
    (hwl : ∀ k, wl (ix2 k q) = Wl (ix2 k Q)) (hwr : ∀ k, wr (ix2 k q) = Wr (ix2 k Q))
    (hb : b (ix2 (0 : Fin 1) q) = B (ix2 (0 : Fin 1) Q)) :
    pre a x wl wr (fun q => b (ix2 (0 : Fin 1) q)) p q = pre A X Wl Wr (fun q => B (ix2 (0 : Fin 1) q)) P Q :=
  pre_congr a x A X wl wr Wl Wr _ _ p P q Q ha hx hwl hwr hb

theorem rectified_block {n : Nat} (a x : FVec Ideal ⟨2, ![5000, 20]⟩ .f32) (wl wr : FVec Ideal ⟨2, ![20, n]⟩ .f32)
    (b : FVec Ideal ⟨2, ![1, n]⟩ .f32) (A X : FVec Ideal ⟨2, ![100000, 20]⟩ .f32) (Wl Wr : FVec Ideal ⟨2, ![20, n]⟩ .f32)
    (B : FVec Ideal ⟨2, ![1, n]⟩ .f32) (p : Fin 5000) (q : Fin n) (P : Fin 100000) (Q : Fin n)
    (ha : ∀ k, a (ix2 p k) = A (ix2 P k)) (hx : ∀ k, x (ix2 p k) = X (ix2 P k))
    (hwl : ∀ k, wl (ix2 k q) = Wl (ix2 k Q)) (hwr : ∀ k, wr (ix2 k q) = Wr (ix2 k Q))
    (hb : b (ix2 (0 : Fin 1) q) = B (ix2 (0 : Fin 1) Q)) :
    max (pre a x wl wr (fun q => b (ix2 (0 : Fin 1) q)) p q) (Ideal.ofBits .f32 0x00000000#32)
      = max (pre A X Wl Wr (fun q => B (ix2 (0 : Fin 1) q)) P Q) (Ideal.ofBits .f32 0x00000000#32) :=
  congrArg (fun z => max z (Ideal.ofBits .f32 0x00000000#32)) (linear_block a x wl wr b A X Wl Wr B p q P Q ha hx hwl hwr hb)

/-! ## Region 0: from the blocks to the array -/

section Region0

variable (V : (c : Dev nD) → (b : Ref sig .tc) → Buf (Elt Ideal) ((c : Thread nD τ).loc b))

/-- Where each window's block sits at point t: the three row-blocked windows at block row t, the weights and the
    bias at the one block there is. -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the whole arrays as the region finds them. -/
abbrev layer0 (c : Dev nD) : S100000x20.Idx → Elt Ideal .f32 :=
  rectified (m := 100000) (K := 20) (n := 20) (V c main_v24) (V c main_arg0) (V c main_arg2) (V c main_arg4)
    (fun q => V c main_v25 (ix2 (0 : Fin 1) q))

/-- What point t writes back is block t of the layer of the whole arrays. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero zero_offsets]
  simp only [View.ld_unit_zero (S := S5000x20) zero_offsets, View.ld_unit_zero (S := S20x20) zero_offsets,
    View.ld_unit_zero (S := S1x20) zero_offsets]
  rw [pay0_eq]
  obtain ⟨e00, e01, e10, e11, e20, e21, e30, e31, e40, e41, e50, e51⟩ := idx_facts0 t
  funext j
  have hj0 : (j 0).val < 5000 := (j 0).isLt
  have hj1 : (j 1).val < 20 := (j 1).isLt
  refine rectified_block (iblk0 V c 0 t) (iblk0 V c 1 t) (iblk0 V c 2 t) (iblk0 V c 4 t) (iblk0 V c 3 t)
    (V c main_v24) (V c main_arg0) (V c main_arg2) (V c main_arg4) (V c main_v25) ⟨(j 0).val, hj0⟩ ⟨(j 1).val, hj1⟩
    ((((cfg0.win 5).blk t).view.emb j) 0) ((((cfg0.win 5).blk t).view.emb j) 1) ?_ ?_ ?_ ?_ ?_
  · intro k
    show V c main_v24 (((cfg0.win 0).blk t).view.emb (ix2 ⟨(j 0).val, hj0⟩ k)) = _
    refine congrArg (V c main_v24) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 20 + 1 * k.val = k.val; omega
  · intro k
    show V c main_arg0 (((cfg0.win 1).blk t).view.emb (ix2 ⟨(j 0).val, hj0⟩ k)) = _
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 20 + 1 * k.val = k.val; omega
  · intro k
    show V c main_arg2 (((cfg0.win 2).blk t).view.emb (ix2 k ⟨(j 1).val, hj1⟩)) = _
    refine congrArg (V c main_arg2) (funext fun a => Fin.ext ?_)
    match a with
    | ⟨0, _⟩ => show win0_2.index t (0 : Fin 2) * 20 + 1 * k.val = k.val; omega
    | ⟨1, _⟩ => show win0_2.index t (1 : Fin 2) * 20 + 1 * (j 1).val = win0_5.index t (1 : Fin 2) * 20 + 1 * (j 1).val; omega
  · intro k
    show V c main_arg4 (((cfg0.win 4).blk t).view.emb (ix2 k ⟨(j 1).val, hj1⟩)) = _
    refine congrArg (V c main_arg4) (funext fun a => Fin.ext ?_)
    match a with
    | ⟨0, _⟩ => show win0_4.index t (0 : Fin 2) * 20 + 1 * k.val = k.val; omega
    | ⟨1, _⟩ => show win0_4.index t (1 : Fin 2) * 20 + 1 * (j 1).val = win0_5.index t (1 : Fin 2) * 20 + 1 * (j 1).val; omega
  · show V c main_v25 (((cfg0.win 3).blk t).view.emb (ix2 (0 : Fin 1) ⟨(j 1).val, hj1⟩)) = _
    refine congrArg (V c main_v25) (funext fun a => Fin.ext ?_)
    match a with
    | ⟨0, _⟩ => show win0_3.index t (0 : Fin 2) * 1 + 1 * 0 = 0; omega
    | ⟨1, _⟩ => show win0_3.index t (1 : Fin 2) * 20 + 1 * (j 1).val = win0_5.index t (1 : Fin 2) * 20 + 1 * (j 1).val; omega

/-- An index of the output array is in point t's block exactly when each coordinate is in the block's range. -/
theorem mem_blk0 (t : Fin cfg0.N) (i : S100000x20.Idx) :
    i ∈ ((cfg0.win 5).blk t).view.set ↔ ∀ a : Fin 2, win0_5.index t a * S5000x20.size a ≤ (i a).val
      ∧ (i a).val < win0_5.index t a * S5000x20.size a + S5000x20.size a := by
  show i ∈ ((View.whole main_v26).slice (win0_5.rect t)).set ↔ _
  rw [View.set_slice_whole, Rect.mem_set_unit]
  exact Iff.rfl

/-- Row r is in the block of point r / 5000: the twenty blocks tile the array. -/
theorem cover0 (i : S100000x20.Idx) :
    ∃ t : Fin cfg0.N, (cfg0.win 5).flush t = true ∧ i ∈ ((cfg0.win 5).blk t).view.set := by
  have hi0 : (i 0).val < 100000 := (i 0).isLt
  have hi1 : (i 1).val < 20 := (i 1).isLt
  have ht : (i 0).val / 5000 < cfg0.N := by show _ < grid0.N; rw [N_0]; omega
  obtain ⟨-, -, -, -, -, -, -, -, -, -, e50, e51⟩ := idx_facts0 ⟨(i 0).val / 5000, ht⟩
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 20 ≤ (i 1).val
      ∧ (i 1).val < win0_5.index ⟨(i 0).val / 5000, ht⟩ (1 : Fin 2) * 20 + 20
    rw [e51]; omega

/-- After all write-backs the output array is the layer of the whole arrays. -/
theorem final0 (c : Dev nD) : (dat0 V c).arrAt 5 cfg0.N = layer0 V c :=
  (dat0 V c).arrAt_eq_of_cover 5 (layer0 V c) (fun t _ => flushed0_eq V c t) (cover0)

end Region0

/-! ## Region 1: from the blocks to the array -/

section Region1

variable (V : (c : Dev nD) → (b : Ref sig .tc) → Buf (Elt Ideal) ((c : Thread nD τ).loc b))

/-- Where each window's block sits at point t: the three row-blocked windows at block row t, the weights and the
    bias at the one block there is. -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the whole arrays as the region finds them. -/
abbrev layer1 (c : Dev nD) : S100000x256.Idx → Elt Ideal .f32 :=
  linear (m := 100000) (K := 20) (n := 256) (V c main_v39) (V c main_v26) (V c main_arg5) (V c main_arg7)
    (fun q => V c main_v40 (ix2 (0 : Fin 1) q))

/-- What point t writes back is block t of the layer of the whole arrays. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero zero_offsets]
  simp only [View.ld_unit_zero (S := S5000x20) zero_offsets, View.ld_unit_zero (S := S20x256) zero_offsets,
    View.ld_unit_zero (S := S1x256) zero_offsets]
  rw [pay1_eq]
  obtain ⟨e00, e01, e10, e11, e20, e21, e30, e31, e40, e41, e50, e51⟩ := idx_facts1 t
  funext j
  have hj0 : (j 0).val < 5000 := (j 0).isLt
  have hj1 : (j 1).val < 256 := (j 1).isLt
  refine linear_block (iblk1 V c 0 t) (iblk1 V c 1 t) (iblk1 V c 2 t) (iblk1 V c 4 t) (iblk1 V c 3 t)
    (V c main_v39) (V c main_v26) (V c main_arg5) (V c main_arg7) (V c main_v40) ⟨(j 0).val, hj0⟩ ⟨(j 1).val, hj1⟩
    ((((cfg1.win 5).blk t).view.emb j) 0) ((((cfg1.win 5).blk t).view.emb j) 1) ?_ ?_ ?_ ?_ ?_
  · intro k
    show V c main_v39 (((cfg1.win 0).blk t).view.emb (ix2 ⟨(j 0).val, hj0⟩ k)) = _
    refine congrArg (V c main_v39) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 20 + 1 * k.val = k.val; omega
  · intro k
    show V c main_v26 (((cfg1.win 1).blk t).view.emb (ix2 ⟨(j 0).val, hj0⟩ k)) = _
    refine congrArg (V c main_v26) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 20 + 1 * k.val = k.val; omega
  · intro k
    show V c main_arg5 (((cfg1.win 2).blk t).view.emb (ix2 k ⟨(j 1).val, hj1⟩)) = _
    refine congrArg (V c main_arg5) (funext fun a => Fin.ext ?_)
    match a with
    | ⟨0, _⟩ => show win1_2.index t (0 : Fin 2) * 20 + 1 * k.val = k.val; omega
    | ⟨1, _⟩ => show win1_2.index t (1 : Fin 2) * 256 + 1 * (j 1).val = win1_5.index t (1 : Fin 2) * 256 + 1 * (j 1).val; omega
  · intro k
    show V c main_arg7 (((cfg1.win 4).blk t).view.emb (ix2 k ⟨(j 1).val, hj1⟩)) = _
    refine congrArg (V c main_arg7) (funext fun a => Fin.ext ?_)
    match a with
    | ⟨0, _⟩ => show win1_4.index t (0 : Fin 2) * 20 + 1 * k.val = k.val; omega
    | ⟨1, _⟩ => show win1_4.index t (1 : Fin 2) * 256 + 1 * (j 1).val = win1_5.index t (1 : Fin 2) * 256 + 1 * (j 1).val; omega
  · show V c main_v40 (((cfg1.win 3).blk t).view.emb (ix2 (0 : Fin 1) ⟨(j 1).val, hj1⟩)) = _
    refine congrArg (V c main_v40) (funext fun a => Fin.ext ?_)
    match a with
    | ⟨0, _⟩ => show win1_3.index t (0 : Fin 2) * 1 + 1 * 0 = 0; omega
    | ⟨1, _⟩ => show win1_3.index t (1 : Fin 2) * 256 + 1 * (j 1).val = win1_5.index t (1 : Fin 2) * 256 + 1 * (j 1).val; omega

/-- An index of the output array is in point t's block exactly when each coordinate is in the block's range. -/
theorem mem_blk1 (t : Fin cfg1.N) (i : S100000x256.Idx) :
    i ∈ ((cfg1.win 5).blk t).view.set ↔ ∀ a : Fin 2, win1_5.index t a * S5000x256.size a ≤ (i a).val
      ∧ (i a).val < win1_5.index t a * S5000x256.size a + S5000x256.size a := by
  show i ∈ ((View.whole main_v41).slice (win1_5.rect t)).set ↔ _
  rw [View.set_slice_whole, Rect.mem_set_unit]
  exact Iff.rfl

/-- Row r is in the block of point r / 5000: the twenty blocks tile the array. -/
theorem cover1 (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have ht : (i 0).val / 5000 < cfg1.N := by show _ < grid1.N; rw [N_1]; omega
  obtain ⟨-, -, -, -, -, -, -, -, -, -, e50, e51⟩ := idx_facts1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 256 ≤ (i 1).val
      ∧ (i 1).val < win1_5.index ⟨(i 0).val / 5000, ht⟩ (1 : Fin 2) * 256 + 256
    rw [e51]; omega

/-- After all write-backs the output array is the layer of the whole arrays. -/
theorem final1 (c : Dev nD) : (dat1 V c).arrAt 5 cfg1.N = layer1 V c :=
  (dat1 V c).arrAt_eq_of_cover 5 (layer1 V c) (fun t _ => flushed1_eq V c t) (cover1)

end Region1

end Cert.Sage.Blocks

end
-- ==== Proof.MeanLaw.lean ====
/-
  Dividing by the clamped degree, in two spellings.

  A node's aggregated feature is the sum s(p, k) of its in-neighbours' features divided by d(p) = max(deg(p), 1).  One
  program forms the reciprocals 1 / d(p) first, lays them out as a column repeated along the feature axis and
  multiplies; the other lays d out the same way and divides.  In the extended reals a quotient by a divisor that is not
  zero is the product with the divisor's inverse, and d(p) ≥ 1 is never zero, so the two arrays are equal entry by
  entry — whatever s and deg hold, infinite values included.
-/
import Idealize.ShloMosaic.Lib.ValueIdx
import Idealize.ShloMosaic.Lib.IdealHost
import Idealize.ShloMosaic.Lib.Pipeline.Value
import Idealize.ShloMosaic.PureOps.Ideal.Laws

noncomputable section

namespace Cert.Sage.MeanLaw

open Idealize.ShloMosaic Idealize.ShloMosaic.TcCoe Idealize.SL.Sem Idealize.ShloMosaic.ValueIdx

abbrev Sc : Shape := ⟨0, ![]⟩
abbrev Nodes : Shape := ⟨1, ![100000]⟩
abbrev Col : Shape := ⟨2, ![100000, 1]⟩
abbrev Feat : Shape := ⟨2, ![100000, 20]⟩

/-- A maximum with one is not zero. -/
theorem max_one_ne_zero (a : EReal) : max a 1 ≠ 0 :=
  (lt_of_lt_of_le (zero_lt_one' EReal) (le_max_right a 1)).ne'

/-- A per-node vector laid out as a column and repeated along the feature axis reads, at (p, k), the vector at p. -/
theorem column_apply {α : Type} (v : Nodes.Idx → α) (h₁ : Nodes.BroadcastsInDim Col (![0] : Fin 1 → Fin 2))
    (h₂ : Col.BroadcastsInDim Feat (![0, 1] : Fin 2 → Fin 2)) (p : Fin 100000) (k : Fin 20) :
    broadcastInDim Feat ![0, 1] h₂ (broadcastInDim Col ![0] h₁ v) (ix2 p k) = v (ix1 p) := by
  refine (broadcastInDim_apply _ h₂ _ (ix2 p k) (ix2 p (0 : Fin 1)) fun a => ?_).trans ?_
  · match a with
    | ⟨0, _⟩ => show p.val = if (100000 : Nat) = 1 then 0 else p.val; rw [if_neg (by decide)]
    | ⟨1, _⟩ => show 0 = if (1 : Nat) = 1 then 0 else k.val; rw [if_pos rfl]
  · refine broadcastInDim_apply _ h₁ v _ (ix1 p) fun a => ?_
    match a with
    | ⟨0, _⟩ => show p.val = if (100000 : Nat) = 1 then 0 else p.val; rw [if_neg (by decide)]

/-- The constant one spread over the nodes reads one everywhere. -/
theorem ones_apply (h₀ : Sc.BroadcastsInDim Nodes (![] : Fin 0 → Fin 1)) (j : Nodes.Idx) :
    broadcastInDim Nodes ![] h₀ (constant (F := Ideal) Sc .f32 0x3F800000#32) j = 1 :=
  (broadcastInDim_scalar_apply h₀ _ j).trans Ideal.ofBits_one_f32

/-- The sum scaled by the reciprocal of the clamped degree is the sum divided by the clamped degree. -/
theorem scaled_eq_quotient (s : FVec Ideal Feat .f32) (deg : FVec Ideal Nodes .f32)
    (h₀ h₀' h₀'' : Sc.BroadcastsInDim Nodes (![] : Fin 0 → Fin 1))
    (h₁ h₁' : Nodes.BroadcastsInDim Col (![0] : Fin 1 → Fin 2))
    (h₂ h₂' : Col.BroadcastsInDim Feat (![0, 1] : Fin 2 → Fin 2)) :
    mulf s (broadcastInDim Feat ![0, 1] h₂ (broadcastInDim Col ![0] h₁
        (Host.divf (broadcastInDim Nodes ![] h₀ (constant (F := Ideal) Sc .f32 0x3F800000#32))
          (maximumf deg (broadcastInDim Nodes ![] h₀' (constant (F := Ideal) Sc .f32 0x3F800000#32))))))
      = Host.divf s (broadcastInDim Feat ![0, 1] h₂' (broadcastInDim Col ![0] h₁'
          (maximumf deg (broadcastInDim Nodes ![] h₀'' (constant (F := Ideal) Sc .f32 0x3F800000#32))))) := by
  funext i
  obtain ⟨p, k, rfl⟩ : ∃ (p : Fin 100000) (k : Fin 20), i = ix2 p k := ⟨i 0, i 1, eq_ix2 i⟩
  rw [mulf_apply, hostDivf_apply, column_apply, column_apply, hostDivf_apply]
  show s (ix2 p k) * Ideal.div (broadcastInDim Nodes ![] h₀ (constant (F := Ideal) Sc .f32 0x3F800000#32) (ix1 p))
        (max (deg (ix1 p)) (broadcastInDim Nodes ![] h₀' (constant (F := Ideal) Sc .f32 0x3F800000#32) (ix1 p)))
      = Ideal.div (s (ix2 p k))
        (max (deg (ix1 p)) (broadcastInDim Nodes ![] h₀'' (constant (F := Ideal) Sc .f32 0x3F800000#32) (ix1 p)))
  have key : ∀ a b c : EReal, a = 1 → b = 1 → c = 1 →
      s (ix2 p k) * Ideal.div a (max (deg (ix1 p)) b) = Ideal.div (s (ix2 p k)) (max (deg (ix1 p)) c) := by
    rintro a b c rfl rfl rfl
    exact Ideal.mul_one_div (max_one_ne_zero _)
  exact key _ _ _ (ones_apply h₀ _) (ones_apply h₀' _) (ones_apply h₀'' _)

end Cert.Sage.MeanLaw

end
-- ==== Proof.HostSide.lean ====
/-
  The host operations around the two regions, read at the buffers the regions consume.

  Before the first region the host splits the edge array into source and destination rows, counts each node's incoming
  edges, clamps the count at one and takes reciprocals, gathers the source rows of the features, adds them up at the
  destinations and scales by the reciprocal: the mean over in-neighbours.  Between the regions it does the same with the
  first layer's output in place of the features.  The gather and the scatter-add are the same two operations, applied to
  the same index arrays, in the program this one is compared with; only the last step differs — a product with the
  reciprocal of the clamped count here, a quotient by the clamped count there — and the two agree (MeanLaw).
-/
import proofs.«115466_j82506321756776_2_alg».proof.Proof.Gen.KernelIdeal.Frame
import proofs.«115466_j82506321756776_2_alg».proof.Proof.Gen.ReferenceIdeal.Read
import proofs.«115466_j82506321756776_2_alg».proof.Proof.MeanLaw
import Idealize.ShloMosaic.Lib.StableHlo.Run

set_option maxRecDepth 16384

noncomputable section

namespace Cert.Sage.HostSide

open Idealize.ShloMosaic Idealize.ShloMosaic.TcCoe Idealize.SL.Sem Idealize.ShloMosaic.StableHlo

abbrev Edges : Type := (⟨Cert.KernelIdeal.S2x3200000, .i32⟩ : BufTy).Contents (Elt Ideal)
abbrev EdgeRow : Type := (⟨Cert.KernelIdeal.S3200000, .i32⟩ : BufTy).Contents (Elt Ideal)
abbrev Feats : Type := (⟨Cert.KernelIdeal.S100000x20, .f32⟩ : BufTy).Contents (Elt Ideal)
abbrev PerNode : Type := (⟨Cert.KernelIdeal.S100000, .f32⟩ : BufTy).Contents (Elt Ideal)

section Kernel

open Cert.KernelIdeal Cert.KernelIdeal.Gen

/-- Row 0 of the edge array: each edge's source node. -/
def srcOf (e : Edges) : EdgeRow :=
  shapeCast _ (extractStridedSlice S1x3200000 ![0, 0] e slices_S2x3200000_S1x3200000_0_0) shapeCasts_S1x3200000_S3200000

/-- Row 1 of the edge array: each edge's destination node. -/
def dstOf (e : Edges) : EdgeRow :=
  shapeCast _ (extractStridedSlice S1x3200000 ![1, 0] e slices_S2x3200000_S1x3200000_1_0) shapeCasts_S1x3200000_S3200000

/-- The reciprocal of each node's in-degree clamped at one. -/
def invOf (e : Edges) : PerNode :=
  Host.divf (broadcastInDim S100000 ![] bcast_S_S100000 (constant (F := Ideal) S_ .f32 0x3F800000#32))
    (maximumf
      (Host.scatterAdd scatter_S100000_S3200000x1_S3200000_n_0_0_1
        (broadcastInDim S100000 ![] bcast_S_S100000 (constant (F := Ideal) S_ .f32 0x00000000#32))
        (broadcastInDim S3200000x1 ![0] bcast_S3200000_S3200000x1_0 (dstOf e))
        (broadcastInDim S3200000 ![] bcast_S_S3200000 (constant (F := Ideal) S_ .f32 0x3F800000#32)))
      (broadcastInDim S100000 ![] bcast_S_S100000 (constant (F := Ideal) S_ .f32 0x3F800000#32)))

/-- The features h gathered at the sources (a negative index counted from the end), added up at the destinations, and
    scaled per node by inv. -/
def scaledSum (h : Feats) (src dst : EdgeRow) (inv : PerNode) : Feats :=
  mulf
    (Host.scatterAdd scatter_S100000x20_S3200000x1_S3200000x20_1_0_0_1
      (broadcastInDim S100000x20 ![] bcast_S_S100000x20 (constant (F := Ideal) S_ .f32 0x00000000#32))
      (broadcastInDim S3200000x1 ![0] bcast_S3200000_S3200000x1_0 dst)
      (Host.gather gather_S100000x20_S3200000x1_S3200000x20_1_0_n_n_0_1_120 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src))))
    (broadcastInDim S100000x20 ![0, 1] bcast_S100000x1_S100000x20_0_1
      (broadcastInDim S100000x1 ![0] bcast_S100000_S100000x1_0 inv))

variable (W : Valuation τ sig (Elt Ideal))

/-! ### The first stretch -/

theorem first_src : StableHlo.after hostOps0 W (Proc.devRef .tc main_v1) = srcOf (W (Proc.devRef .tc main_arg1)) := by
  after_results; rfl
theorem first_dst : StableHlo.after hostOps0 W (Proc.devRef .tc main_v3) = dstOf (W (Proc.devRef .tc main_arg1)) := by
  after_results; rfl
set_option maxHeartbeats 4000000 in
theorem first_inv : StableHlo.after hostOps0 W (Proc.devRef .tc main_v11) = invOf (W (Proc.devRef .tc main_arg1)) := by
  after_results_simp; rfl
set_option maxHeartbeats 4000000 in
theorem first_mean : StableHlo.after hostOps0 W (Proc.devRef .tc main_v24)
    = scaledSum (W (Proc.devRef .tc main_arg0)) (srcOf (W (Proc.devRef .tc main_arg1)))
        (dstOf (W (Proc.devRef .tc main_arg1))) (invOf (W (Proc.devRef .tc main_arg1))) := by
  after_results_simp; rfl
theorem first_bias : StableHlo.after hostOps0 W (Proc.devRef .tc main_v25)
    = shapeCast S1x20 (W (Proc.devRef .tc main_arg3)) shapeCasts_S20_S1x20 := by
  after_results; rfl
theorem first_arg0 : StableHlo.after hostOps0 W (Proc.devRef .tc main_arg0) = W (Proc.devRef .tc main_arg0) := by
  after_results
theorem first_arg1 : StableHlo.after hostOps0 W (Proc.devRef .tc main_arg1) = W (Proc.devRef .tc main_arg1) := by
  after_results
theorem first_arg2 : StableHlo.after hostOps0 W (Proc.devRef .tc main_arg2) = W (Proc.devRef .tc main_arg2) := by
  after_results
theorem first_arg4 : StableHlo.after hostOps0 W (Proc.devRef .tc main_arg4) = W (Proc.devRef .tc main_arg4) := by
  after_results
theorem first_arg5 : StableHlo.after hostOps0 W (Proc.devRef .tc main_arg5) = W (Proc.devRef .tc main_arg5) := by
  after_results
theorem first_arg6 : StableHlo.after hostOps0 W (Proc.devRef .tc main_arg6) = W (Proc.devRef .tc main_arg6) := by
  after_results
theorem first_arg7 : StableHlo.after hostOps0 W (Proc.devRef .tc main_arg7) = W (Proc.devRef .tc main_arg7) := by
  after_results

/-! ### The second stretch -/

set_option maxHeartbeats 4000000 in
theorem second_mean : StableHlo.after hostOps1 W (Proc.devRef .tc main_v39)
    = scaledSum (W (Proc.devRef .tc main_v26)) (W (Proc.devRef .tc main_v1)) (W (Proc.devRef .tc main_v3))
        (W (Proc.devRef .tc main_v11)) := by
  after_results_simp; rfl
theorem second_hidden : StableHlo.after hostOps1 W (Proc.devRef .tc main_v26) = W (Proc.devRef .tc main_v26) := by
  after_results
theorem second_bias : StableHlo.after hostOps1 W (Proc.devRef .tc main_v40)
    = shapeCast S1x256 (W (Proc.devRef .tc main_arg6)) shapeCasts_S256_S1x256 := by
  after_results; rfl
theorem second_arg5 : StableHlo.after hostOps1 W (Proc.devRef .tc main_arg5) = W (Proc.devRef .tc main_arg5) := by
  after_results
theorem second_arg7 : StableHlo.after hostOps1 W (Proc.devRef .tc main_arg7) = W (Proc.devRef .tc main_arg7) := by
  after_results

end Kernel

/-! ### The same mean as the compared program spells it -/

section Reference

open Cert.ReferenceIdeal Cert.ReferenceIdeal.Read

/-- The features h gathered at the sources, added up at the destinations, divided per node by the clamped in-degree:
    the compared program's stages, with h in the features' place. -/
def meanOf (h : Feats) (e : Edges) : Feats :=
  Host.divf (F := Ideal) (φ := .f32)
    (Host.scatterAdd (F := Ideal) (φ := .f32) scatter_S100000x20_S3200000x1_S3200000x20_1_0_0_1 (val_main_v11 (F := Ideal))
      (val_main_v12 (F := Ideal) e)
      (Host.gather (α := Ideal .f32) gather_S100000x20_S3200000x1_S3200000x20_1_0_n_n_0_1_120 h (val_main_v9 (F := Ideal) e)))
    (val_main_v21 (F := Ideal) e)

/-- Its first use: the features themselves. -/
theorem stage22_eq (x0 : Feats) (e : Edges) : val_main_v22 (F := Ideal) x0 e = meanOf x0 e := rfl

/-- Its second use: the first layer's output. -/
theorem stage52_eq (x0 : Feats) (e : Edges) (x2 : (⟨S20x20, .f32⟩ : BufTy).Contents (Elt Ideal))
    (x3 : (⟨S20, .f32⟩ : BufTy).Contents (Elt Ideal)) (x4 : (⟨S20x20, .f32⟩ : BufTy).Contents (Elt Ideal)) :
    val_main_v52 (F := Ideal) x0 e x2 x3 x4 = meanOf (val_main_v29 (F := Ideal) x0 e x2 x3 x4) e := rfl

end Reference

/-- The scaled sum with the reciprocal clamped in-degrees is the mean. -/
theorem scaledSum_eq_meanOf (h : Feats) (e : Edges) : scaledSum h (srcOf e) (dstOf e) (invOf e) = meanOf h e :=
  (Cert.Sage.MeanLaw.scaled_eq_quotient _ _ _ _ _ _ _ _ _).trans rfl

end Cert.Sage.HostSide

end
-- ==== Proof.RefSide.lean ====
/-
  The compared program's two layers, entry by entry.

  Its first layer is  max(mean(x)·Wl1 + b1 + x·Wr1, 0)  and its result  mean(h)·Wl2 + b2 + h·Wr2  of that layer's output
  h, each matrix product a host dot_general and each bias laid out by two broadcasts.  At exact arithmetic entry (p, q) of a
  dot_general is the sum over the contracted axis, so both are two-term layers with the bias added between the two
  products; addition of extended reals is commutative and associative, so the bias may as well be added last.
-/
import proofs.«115466_j82506321756776_2_alg».proof.Proof.Gen.ReferenceIdeal.Read
import proofs.«115466_j82506321756776_2_alg».proof.Proof.LibTwoTermLayer
import proofs.«115466_j82506321756776_2_alg».proof.Proof.HostSide
import Idealize.ShloMosaic.Lib.ValueIdx
import Idealize.ShloMosaic.Lib.IdealHost

set_option maxRecDepth 16384

noncomputable section

namespace Cert.Sage.RefSide

open Cert.ReferenceIdeal Cert.ReferenceIdeal.Gen Cert.ReferenceIdeal.Read
open Idealize.ShloMosaic Idealize.ShloMosaic.TcCoe Idealize.SL.Sem Idealize.ShloMosaic.ValueIdx
open Cert.Lib.DenseLayer Cert.Lib.TwoTermLayer Cert.Sage.HostSide

theorem isMatA : IsMatProduct (m := 100000) (K := 20) (n := 20) dot_S100000x20_S20x20_S100000x20_1_0_0_1_n_n :=
  ⟨rfl, rfl, rfl, rfl, rfl, rfl⟩
theorem isMatB : IsMatProduct (m := 100000) (K := 20) (n := 256) dot_S100000x20_S20x256_S100000x256_1_0_0_1_n_n :=
  ⟨rfl, rfl, rfl, rfl, rfl, rfl⟩

/-- The array of zeros the rectifier compares with reads the pattern of zero everywhere. -/
theorem zeros_apply (i : S100000x20.Idx) : val_main_call0_v0 (F := Ideal) i = Ideal.ofBits .f32 0x00000000#32 :=
  broadcastInDim_scalar_apply bcast_S_S100000x20 (val_main_call0_cst (F := Ideal)) i

variable (x0 : Feats) (e : Edges) (x2 x4 : (⟨S20x20, .f32⟩ : BufTy).Contents (Elt Ideal))
  (x3 : (⟨S20, .f32⟩ : BufTy).Contents (Elt Ideal)) (x5 x7 : (⟨S20x256, .f32⟩ : BufTy).Contents (Elt Ideal))
  (x6 : (⟨S256, .f32⟩ : BufTy).Contents (Elt Ideal))

/-- The first layer's output: the rectified two-term layer of the mean of the features and the features. -/
theorem hidden_eq : val_main_v29 (F := Ideal) x0 e x2 x3 x4
    = rectified (m := 100000) (K := 20) (n := 20) (meanOf x0 e) x0 x2 x4 (fun q => x3 (ix1 q)) := by
  funext i
  obtain ⟨p, q, rfl⟩ : ∃ (p : Fin 100000) (q : Fin 20), i = ix2 p q := ⟨i 0, i 1, eq_ix2 i⟩
  rw [val_main_v29_apply, val_main_v28_apply, val_main_v26_apply, zeros_apply]
  unfold val_main_v23 val_main_v27 val_main_v25 val_main_v24
  rw [dotGeneral_entry isMatA, dotGeneral_entry isMatA, host_bias_entry, stage22_eq, Ideal.maximumf_def, Ideal.addf_def,
    Ideal.addf_def, add_right_comm]
  rfl

/-- The result: the two-term layer of the mean of the first layer's output and that output. -/
theorem out_eq : val_main_v58 (F := Ideal) x0 e x2 x3 x4 x5 x6 x7
    = linear (m := 100000) (K := 20) (n := 256) (meanOf (val_main_v29 (F := Ideal) x0 e x2 x3 x4) e)
        (val_main_v29 (F := Ideal) x0 e x2 x3 x4) x5 x7 (fun q => x6 (ix1 q)) := by
  funext i
  obtain ⟨p, q, rfl⟩ : ∃ (p : Fin 100000) (q : Fin 256), i = ix2 p q := ⟨i 0, i 1, eq_ix2 i⟩
  rw [val_main_v58_apply, val_main_v56_apply]
  unfold val_main_v53 val_main_v57 val_main_v55 val_main_v54
  rw [dotGeneral_entry isMatB, dotGeneral_entry isMatB, host_bias_entry, stage52_eq, Ideal.addf_def, Ideal.addf_def,
    add_right_comm]
  rfl

end Cert.Sage.RefSide

end
-- ==== Proof.Bridge.lean ====
/-
  The idealized kernel's result is the compared program's result, as one function of the arguments.

  Reading the run backwards: the result array is the second region's output after its write-backs, the two-term layer of
  the arrays that region finds; those are the mean of the first layer's output, that output, and the second layer's
  weights and bias; the first layer's output is the first region's array after its write-backs, the rectified two-term
  layer of the mean of the features, the features, and the first layer's weights and bias.  The compared program's
  stages are the same two layers of the same means.
-/
import proofs.«115466_j82506321756776_2_alg».proof.Proof.Blocks
import proofs.«115466_j82506321756776_2_alg».proof.Proof.HostSide
import proofs.«115466_j82506321756776_2_alg».proof.Proof.RefSide

set_option maxRecDepth 16384

noncomputable section

namespace Cert.Sage.Bridge

open Cert.KernelIdeal Cert.KernelIdeal.Gen
open Idealize.ShloMosaic Idealize.ShloMosaic.TcCoe Idealize.SL.Sem Idealize.ShloMosaic.ValueIdx
open Cert.Lib.DenseLayer Cert.Lib.TwoTermLayer Cert.Sage.HostSide Cert.Sage.Blocks

variable (m : (ℓ : Loc nD τ sig) → Buf (Elt Ideal) ℓ) (ρ : Dev nD → PrngReg) (c : Dev nD)

/-- The first layer's output as a function of the launch contents. -/
abbrev hiddenOf : Feats :=
  rectified (m := 100000) (K := 20) (n := 20)
    (meanOf (m ((c.tc : Thread nD τ).loc main_arg0)) (m ((c.tc : Thread nD τ).loc main_arg1)))
    (m ((c.tc : Thread nD τ).loc main_arg0)) (m ((c.tc : Thread nD τ).loc main_arg2))
    (m ((c.tc : Thread nD τ).loc main_arg4)) (fun q => m ((c.tc : Thread nD τ).loc main_arg3) (ix1 q))

/-! ### What the first region finds and leaves -/

theorem entry0_mean : V1 m ρ c main_v24
    = meanOf (m ((c.tc : Thread nD τ).loc main_arg0)) (m ((c.tc : Thread nD τ).loc main_arg1)) := by
  show StableHlo.after hostOps0 (W0 m ρ c) (Proc.devRef .tc main_v24) = _
  rw [first_mean]
  exact scaledSum_eq_meanOf _ _

theorem entry0_bias (q : Fin 20) : V1 m ρ c main_v25 (ix2 (0 : Fin 1) q) = m ((c.tc : Thread nD τ).loc main_arg3) (ix1 q) := by
  show StableHlo.after hostOps0 (W0 m ρ c) (Proc.devRef .tc main_v25) (ix2 (0 : Fin 1) q) = _
  rw [first_bias]
  exact shapeCast_a_1a_apply _ _ 0 q

/-- The first region's output array after its write-backs. -/
theorem hidden : W2 m ρ c (Proc.devRef .tc main_v26) = hiddenOf m c := by
  refine (W2_arr m ρ c 5).trans ?_
  rw [final0]
  exact rectified_congr (entry0_mean m ρ c) (first_arg0 _) (first_arg2 _) (first_arg4 _) (entry0_bias m ρ c)

/-! ### What the second region finds -/

theorem kept_src : W2 m ρ c (Proc.devRef .tc main_v1) = srcOf (m ((c.tc : Thread nD τ).loc main_arg1)) :=
  (W2_of_ne m ρ c main_v1 (by decide)).trans (first_src _)
theorem kept_dst : W2 m ρ c (Proc.devRef .tc main_v3) = dstOf (m ((c.tc : Thread nD τ).loc main_arg1)) :=
  (W2_of_ne m ρ c main_v3 (by decide)).trans (first_dst _)
theorem kept_inv : W2 m ρ c (Proc.devRef .tc main_v11) = invOf (m ((c.tc : Thread nD τ).loc main_arg1)) :=
  (W2_of_ne m ρ c main_v11 (by decide)).trans (first_inv _)
theorem kept_arg5 : W2 m ρ c (Proc.devRef .tc main_arg5) = m ((c.tc : Thread nD τ).loc main_arg5) :=
  (W2_of_ne m ρ c main_arg5 (by decide)).trans (first_arg5 _)
theorem kept_arg6 : W2 m ρ c (Proc.devRef .tc main_arg6) = m ((c.tc : Thread nD τ).loc main_arg6) :=
  (W2_of_ne m ρ c main_arg6 (by decide)).trans (first_arg6 _)
theorem kept_arg7 : W2 m ρ c (Proc.devRef .tc main_arg7) = m ((c.tc : Thread nD τ).loc main_arg7) :=
  (W2_of_ne m ρ c main_arg7 (by decide)).trans (first_arg7 _)

theorem entry1_hidden : V3 m ρ c main_v26 = hiddenOf m c := by
  show StableHlo.after hostOps1 (W2 m ρ c) (Proc.devRef .tc main_v26) = _
  rw [second_hidden]
  exact hidden m ρ c

theorem entry1_mean : V3 m ρ c main_v39 = meanOf (hiddenOf m c) (m ((c.tc : Thread nD τ).loc main_arg1)) := by
  show StableHlo.after hostOps1 (W2 m ρ c) (Proc.devRef .tc main_v39) = _
  rw [second_mean, hidden, kept_src, kept_dst, kept_inv]
  exact scaledSum_eq_meanOf _ _

theorem entry1_arg5 : V3 m ρ c main_arg5 = m ((c.tc : Thread nD τ).loc main_arg5) := by
  show StableHlo.after hostOps1 (W2 m ρ c) (Proc.devRef .tc main_arg5) = _
  rw [second_arg5]
  exact kept_arg5 m ρ c

theorem entry1_arg7 : V3 m ρ c main_arg7 = m ((c.tc : Thread nD τ).loc main_arg7) := by
  show StableHlo.after hostOps1 (W2 m ρ c) (Proc.devRef .tc main_arg7) = _
  rw [second_arg7]
  exact kept_arg7 m ρ c

theorem entry1_bias (q : Fin 256) : V3 m ρ c main_v40 (ix2 (0 : Fin 1) q) = m ((c.tc : Thread nD τ).loc main_arg6) (ix1 q) := by
  show StableHlo.after hostOps1 (W2 m ρ c) (Proc.devRef .tc main_v40) (ix2 (0 : Fin 1) q) = _
  rw [second_bias, kept_arg6]
  exact shapeCast_a_1a_apply _ _ 0 q

/-! ### The result -/

/-- The result buffer after the run holds the compared program's last stage of the launch contents. -/
theorem result : W4 m ρ c (Proc.devRef .tc main_v41)
    = Cert.ReferenceIdeal.Read.val_main_v58 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) := by
  refine (W4_arr m ρ c 5).trans ?_
  rw [final1, Cert.Sage.RefSide.out_eq, Cert.Sage.RefSide.hidden_eq]
  exact linear_congr (entry1_mean m ρ c) (entry1_hidden m ρ c) (entry1_arg5 m ρ c) (entry1_arg7 m ρ c) (entry1_bias m ρ c)

end Cert.Sage.Bridge

end
-- ==== Proof.lean ====
/-
  A two-layer graph network with mean aggregation, as a tiled kernel and as plain array code.

  Each layer maps node features x to  mean(x)·Wl + b + x·Wr, where mean(x)(p) is the sum of x over the edges into
  node p divided by max(indegree(p), 1); the first layer is followed by the maximum with zero.  The kernel computes the
  gather, the scatter-add and the degree count on the host, exactly as the array code does, and runs each layer's two
  matrix products, sum and bias in a pipelined region over blocks of 5000 rows; it multiplies by the reciprocal of the
  clamped degree where the array code divides, and adds the bias after the second product where the array code adds it
  before.

  At exact arithmetic the two are the same function of the arguments.  A quotient by a divisor that is not zero is the
  product with the divisor's inverse, and a degree clamped at one is never zero (MeanLaw).  A matrix product into a zero
  accumulator and a dot_general are the same sum over the contracted axis, a change of float format is the identity, and
  sums of extended reals may be regrouped (RefSide, LibTwoTermLayer).  Each region's twenty blocks tile the rows, every
  entry depends on its own row only, so each region leaves the layer of its whole input arrays (Blocks); the host
  operations before and between the regions are read at the buffers the regions consume (HostSide), and the result
  buffer is followed back through the run to the arguments (KernelRun, Bridge).  No rewrite was made when the kernel was
  idealized, so that claim is empty; the frames are the launches' own.
-/
import proofs.«115466_j82506321756776_2_alg».proof.Defs
import proofs.«115466_j82506321756776_2_alg».proof.Proof.Gen.Kernel
import proofs.«115466_j82506321756776_2_alg».proof.Proof.Gen.Kernel.Skeleton
import proofs.«115466_j82506321756776_2_alg».proof.Proof.Gen.Kernel.Launch
import proofs.«115466_j82506321756776_2_alg».proof.Proof.Gen.Kernel.Points
import proofs.«115466_j82506321756776_2_alg».proof.Proof.Gen.Kernel.Frame
import proofs.«115466_j82506321756776_2_alg».proof.Proof.Gen.KernelIdeal
import proofs.«115466_j82506321756776_2_alg».proof.Proof.Gen.KernelIdeal.Skeleton
import proofs.«115466_j82506321756776_2_alg».proof.Proof.Gen.KernelIdeal.Launch
import proofs.«115466_j82506321756776_2_alg».proof.Proof.Gen.KernelIdeal.Points
import proofs.«115466_j82506321756776_2_alg».proof.Proof.Gen.KernelIdeal.Frame
import proofs.«115466_j82506321756776_2_alg».proof.Proof.Gen.ReferenceIdeal
import proofs.«115466_j82506321756776_2_alg».proof.Proof.Gen.Pre_finite_inputs
import proofs.«115466_j82506321756776_2_alg».proof.Proof.Gen.ReferenceIdeal.Run
import proofs.«115466_j82506321756776_2_alg».proof.Proof.Gen.ReferenceIdeal.Read
import proofs.«115466_j82506321756776_2_alg».proof.Proof.KernelRun
import proofs.«115466_j82506321756776_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The array code runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories agreeing on the arguments both programs end with the same result array: the array code's last
    stage of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v41),
    Cert.Sage.KernelRun.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Sage.Bridge.result m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
